-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x64 .f32) (main_arg6 : FVec F S64x64 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64x64 .f32) (main_arg7 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S20000x64 : Shape := ⟨2, ![20000, 64]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩
abbrev S10000x64 : Shape := ⟨2, ![10000, 64]⟩
abbrev S10000x128 : Shape := ⟨2, ![10000, 128]⟩
abbrev S1x128 : Shape := ⟨2, ![1, 128]⟩

abbrev nBuf : Space → Nat
  | .hbm => 42
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S64, .f32⟩
  | .local _ .vmem, ⟨4, _⟩ => ⟨S20000x64, .f32⟩
  | .local _ .vmem, ⟨5, _⟩ => ⟨S20000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S64x64, .f32⟩
  | .local _ .vmem, ⟨12, _⟩ => ⟨S128, .f32⟩
  | .local _ .vmem, ⟨13, _⟩ => ⟨S10000x128, .f32⟩
  | .local _ .vmem, ⟨14, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S20000x64 : S1x64.Broadcasts S20000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  concatenates_S10000x64_S10000x64_S10000x128_d1 : Shape.Concatenates [S10000x64, S10000x64] S10000x128 1
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  gather_S100000x64_S1600000x1_S1600000x64_1_0_n_n_0_1_164_wf : GatherDims.WF S100000x64 S1600000x1 S1600000x64 [1] [0] [] [0] [] 1 ![1, 64]
  dot_S20000x64_S64x64_S20000x64_1_0_0_1_n_n_wf : DotDims.WF S20000x64 S64x64 S20000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1600000x64.size a
  hwx0_0 : ∀ i : grid0.Coords, EltTy.bits .f32 = 32 ∨ (Rect.block (s := S1600000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S1600000x64.size a
  hwx0_3 : ∀ i : grid0.Coords, EltTy.bits .f32 = 32 ∨ (Rect.block (s := S1600000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v13) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S1x64, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S1600000x64, .f32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  @main is four segments: the host operations up to the first launch, the edge stage over its 80 grid points, the host
  operations between the launches, and the node stage over its 10 grid points. Every unscoped buffer ends at the
  contents the fourth segment leaves, so the result buffer ends as the array the node stage's write-backs build,
  `(dat1 (V3 m ρ) c).arrAt 5 cfg1.N`, and every argument ends as launched.
-/
import proofs.«107751_j37254546326091_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends as the node stage's final
    array and the eight arguments end as launched. -/
theorem run_main : θ_run defs (onTc (τ := τ) (main (F := F))) ⟨m, fun _ => 0, ρ⟩ (fun r => ∀ c : Dev nD,
      r.2.mem ((c.tc : Thread nD τ).loc main_v27) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v27 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.EdgeBlock.lean ====
/-
  One block of the edge stage, read entry by entry.

  The first kernel body takes a block `x` of 20000 edge rows (64 features each), the whole 64 × 64 weight `w` and the
  bias row `b`, and stores `max (x · w + b, 0)`. Over the extended reals the two format changes are the identity, the
  product into a zero accumulator is the plain sum over the contracted axis, and the bias row is repeated down the
  rows, so the entry at row `p`, column `q` is
      max (∑ k, x (p, k) * w (k, q) + b q) 0.
-/
import proofs.«107751_j37254546326091_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeStage

open Cert.KernelIdeal Cert.KernelIdeal.Gen Idealize.ShloMosaic Idealize.ShloMosaic.ValueIdx

/-! The operand positions of the block product: at output position `i` and contracted position `q` the left operand
    is read at (row of `i`, `q`) and the right operand at (`q`, column of `i`). -/

theorem lhs_row (i : S20000x64.Idx) (q : dot_S20000x64_S64x64_S20000x64_1_0_0_1_n_n.contr.Idx) : (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide),
    dif_pos (show (0 : Fin S20000x64.rank) ∈ dot_S20000x64_S64x64_S20000x64_1_0_0_1_n_n.lhsNonContracting by decide)]
  rfl
theorem lhs_col (i : S20000x64.Idx) (q : dot_S20000x64_S64x64_S20000x64_1_0_0_1_n_n.contr.Idx) : (dot_S20000x64_S64x64_S20000x64_1_0_0_1_n_n.lhsIdx i q 1).val = (q ⟨0, by decide⟩).val :=
  dot_S20000x64_S64x64_S20000x64_1_0_0_1_n_n.lhsIdx_val_of_single rfl i q
theorem rhs_row (i : S20000x64.Idx) (q : dot_S20000x64_S64x64_S20000x64_1_0_0_1_n_n.contr.Idx) : (dot_S20000x64_S64x64_S20000x64_1_0_0_1_n_n.rhsIdx i q 0).val = (q ⟨0, by decide⟩).val :=
  dot_S20000x64_S64x64_S20000x64_1_0_0_1_n_n.rhsIdx_val_of_single rfl i q
theorem rhs_col (i : S20000x64.Idx) (q : dot_S20000x64_S64x64_S20000x64_1_0_0_1_n_n.contr.Idx) : (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide),
    dif_pos (show (1 : Fin S64x64.rank) ∈ dot_S20000x64_S64x64_S20000x64_1_0_0_1_n_n.rhsNonContracting by decide)]
  rfl

/-- The product of a 20000 × 64 block with the 64 × 64 weight, into a zero accumulator, at row `p` and column `q`:
    the sum over the 64 contracted positions of the block's row entry times the weight's column entry. -/
theorem matmul_block_apply (x : FVec Ideal S20000x64 .bf16) (w : FVec Ideal S64x64 .bf16) (p : Fin 20000) (q : Fin 64) :
    matmul dot_S20000x64_S64x64_S20000x64_1_0_0_1_n_n none x w (constant (F := Ideal) S20000x64 .f32 0x00000000#32) (ix2 p q)
      = ∑ k : Fin 64, x (ix2 p k) * w (ix2 k q) := by
  refine (Ideal.matmul_constant_zero_apply dot_S20000x64_S64x64_S20000x64_1_0_0_1_n_n none x w (ix2 p q)).trans ?_
  rw [← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ix2 p q) ((ValueIdx.contrEquiv1 dot_S20000x64_S64x64_S20000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S20000x64_S64x64_S20000x64_1_0_0_1_n_n.rhsIdx (ix2 p q) ((ValueIdx.contrEquiv1 dot_S20000x64_S64x64_S20000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The bias row, given a unit leading axis and repeated over the 20000 rows, at `(p, q)` is the bias at `q`. -/
theorem bias_rows_apply (b : Vec Ideal S64 .f32) (p : Fin 20000) (q : Fin 64) :
    broadcastTo S20000x64 (shapeCast S1x64 b shapeCasts_S64_S1x64) broadcasts_S1x64_S20000x64 (ix2 p q) = b (ix1 q) :=
  (broadcastTo_1b_ab_apply _ broadcasts_S1x64_S20000x64 p q).trans (shapeCast_a_1a_apply b shapeCasts_S64_S1x64 0 q)

/-- What the first body stores, at row `p` and column `q` of its block. -/
theorem pay_apply (x : Vec Ideal S20000x64 .f32) (w : Vec Ideal S64x64 .f32) (b : Vec Ideal S64 .f32)
    (p : Fin 20000) (q : Fin 64) :
    k0_pay1 (F := Ideal) x w b (ix2 p q) = max (∑ k : Fin 64, x (ix2 p k) * w (ix2 k q) + b (ix1 q)) 0 := by
  unfold k0_pay1
  rw [maximumf_apply, addf_apply, bias_rows_apply, shapeCast_self, broadcast_apply]
  refine congrArg₂ max (congrArg (· + b (ix1 q)) ?_) Ideal.ofBits_zero_f32
  exact matmul_block_apply _ _ p q

end Cert.KernelIdeal.EdgeStage

end
-- ==== Proof.Spec.lean ====
/-
  The two dense stages of the layer, as functions of whole arrays over the extended reals.

  Edge stage: from the weighted neighbour rows `n` (one row of 64 features per edge), a 64 × 64 weight `w` and a bias
  row `b`, the hidden row of edge `e` is  max (n e · w + b, 0).

  Node stage: from the per-node mean `r` of the hidden rows, the node features `x`, two 64 × 64 weights `nk`, `sk` and
  a bias row `b` of 128 entries, the output row of node `v` is  max ([r v · nk , x v · sk] + b, 0): columns 0–63 come
  from the neighbours' mean, columns 64–127 from the node's own features.

  Both programs compute exactly these two functions (the kernel block by block, the reference on whole arrays), with
  the same host operations before, between and after them, so no law of the extended reals beyond reading each
  operation at an index is needed to join them.
-/
import Idealize.ShloMosaic.PureOps.Ideal
import Idealize.ShloMosaic.Lib.ValueIdx

noncomputable section

namespace Cert.Spec

open Idealize.ShloMosaic Idealize.ShloMosaic.ValueIdx

/-- The hidden row of every edge: relu of (neighbour row · weight + bias). -/
def edgeStage (n : (⟨2, ![1600000, 64]⟩ : Shape).Idx → EReal) (w : (⟨2, ![64, 64]⟩ : Shape).Idx → EReal)
    (b : (⟨1, ![64]⟩ : Shape).Idx → EReal) : (⟨2, ![1600000, 64]⟩ : Shape).Idx → EReal :=
  fun i => max (∑ k : Fin 64, n (ix2 (i 0) k) * w (ix2 k (i 1)) + b (ix1 (i 1))) 0

/-- Column `j` of the joined products at node `v`: below 64 the neighbours' mean times `nk`, from 64 on the node's
    own features times `sk` at column `j - 64`. -/
def joined (r x : (⟨2, ![100000, 64]⟩ : Shape).Idx → EReal) (nk sk : (⟨2, ![64, 64]⟩ : Shape).Idx → EReal)
    (v : Fin 100000) (j : Fin 128) : EReal :=
  if h : j.val < 64 then ∑ k : Fin 64, r (ix2 v k) * nk (ix2 k (⟨j.val, h⟩ : Fin 64))
  else ∑ k : Fin 64, x (ix2 v k) * sk (ix2 k (⟨j.val - 64, by have := j.isLt; omega⟩ : Fin 64))

/-- The output row of every node: relu of (joined products + bias). -/
def nodeStage (r x : (⟨2, ![100000, 64]⟩ : Shape).Idx → EReal) (nk sk : (⟨2, ![64, 64]⟩ : Shape).Idx → EReal)
    (b : (⟨1, ![128]⟩ : Shape).Idx → EReal) : (⟨2, ![100000, 128]⟩ : Shape).Idx → EReal :=
  fun i => max (joined r x nk sk (i 0) (i 1) + b (ix1 (i 1))) 0

end Cert.Spec

end
-- ==== Proof.EdgeArray.lean ====
/-
  From the edge stage's blocks to its whole array.

  Grid point `t` of the first launch reads rows 20000·t … 20000·t + 19999 of the neighbour rows, the whole weight and
  the whole bias, and writes back the same rows of the hidden array. The 80 blocks tile the 1600000 rows, so after the
  launch the hidden array is the edge stage of the arrays the launch found — whatever those arrays are.
-/
import proofs.«107751_j37254546326091_1_alg».proof.Proof.Gen.KernelIdeal.Frame
import proofs.«107751_j37254546326091_1_alg».proof.Proof.EdgeBlock
import proofs.«107751_j37254546326091_1_alg».proof.Proof.Spec
import Idealize.ShloMosaic.Lib.Pipeline.Value

set_option maxRecDepth 16384

noncomputable section

namespace Cert.KernelIdeal.EdgeStage

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem off2_zero : (![0, 0] : Fin 2 → Nat) = fun _ => 0 := funext fun a => by fin_cases a <;> rfl
theorem off1_zero : (![0] : Fin 1 → Nat) = fun _ => 0 := funext fun a => by fin_cases a; rfl

/-- The block positions over the grid: the neighbour rows and the hidden rows move together along the rows and never
    along the columns; the weight and the bias stay at their one block. -/
theorem block_positions : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0 ∧ win0_3.index t (0 : Fin 2) ≤ 79 :=
  (by decide +kernel : ∀ t : Fin grid0.N, _)

/-- Every one of the 80 row blocks is some grid point's. -/
theorem block_onto : ∀ q : Fin 80, ∃ t : Fin cfg0.N, win0_3.index t = ![q.val, 0] :=
  (by decide +kernel : ∀ q : Fin 80, ∃ t : Fin grid0.N, win0_3.index t = ![q.val, 0])

/-- What grid point `t` writes back is block `t` of the edge stage of the arrays the launch found. -/
theorem flushed_eq (c : Dev nD) (t : Fin cfg0.N) :
    (dat0 V c).flushed 3 t = ((cfg0.win 3).blk t).view.read (Elt Ideal)
      (Cert.Spec.edgeStage (V c main_v13) (V c main_arg3) (V c main_arg4)) := by
  show (cfg0.win 3).cut (grid0.coords t) ((dat0 V c).after 3 t) = _
  rw [after0_3]
  unfold out0_3
  rw [View.canon_unit_zero off2_zero]
  simp only [View.ld_unit_zero (S := S20000x64) off2_zero, View.ld_unit_zero (S := S64x64) off2_zero,
    View.ld_unit_zero (S := S64) off1_zero]
  obtain ⟨e0, e1, e2, e3, e4, e5, e6⟩ := block_positions t
  funext j
  obtain ⟨p, q, rfl⟩ : ∃ (p : Fin 20000) (q : Fin 64), j = ix2 p q := ⟨j 0, j 1, eq_ix2 j⟩
  show k0_pay1 (F := Ideal) (iblk0 V c 0 t) (iblk0 V c 1 t) (iblk0 V c 2 t) (ix2 p q)
    = Cert.Spec.edgeStage (V c main_v13) (V c main_arg3) (V c main_arg4) (((cfg0.win 3).blk t).view.emb (ix2 p q))
  refine (pay_apply (iblk0 V c 0 t) (iblk0 V c 1 t) (iblk0 V c 2 t) p q).trans ?_
  unfold Cert.Spec.edgeStage
  -- the neighbour block's row `p` is row 20000·t + p of the array, the weight and the bias are read whole
  have hx : ∀ k : Fin 64, iblk0 V c 0 t (ix2 p k)
      = V c main_v13 (ix2 ((((cfg0.win 3).blk t).view.emb (ix2 p q)) 0) k) := fun k => by
    show V c main_v13 (((cfg0.win 0).blk t).view.emb (ix2 p k)) = _
    refine congrArg (V c main_v13) (funext fun a => Fin.ext ?_)
    match a with
    | ⟨0, _⟩ => show win0_0.index t (0 : Fin 2) * 20000 + 1 * p.val = win0_3.index t (0 : Fin 2) * 20000 + 1 * p.val; rw [e0]
    | ⟨1, _⟩ => show win0_0.index t (1 : Fin 2) * 64 + 1 * k.val = k.val; rw [e1]; omega
  have hw : ∀ k : Fin 64, iblk0 V c 1 t (ix2 k q)
      = V c main_arg3 (ix2 k ((((cfg0.win 3).blk t).view.emb (ix2 p q)) 1)) := fun k => by
    show V c main_arg3 (((cfg0.win 1).blk t).view.emb (ix2 k q)) = _
    refine congrArg (V c main_arg3) (funext fun a => Fin.ext ?_)
    match a with
    | ⟨0, _⟩ => show win0_1.index t (0 : Fin 2) * 64 + 1 * k.val = k.val; rw [e3]; omega
    | ⟨1, _⟩ => show win0_1.index t (1 : Fin 2) * 64 + 1 * q.val = win0_3.index t (1 : Fin 2) * 64 + 1 * q.val; rw [e4, e2]
  have hb : iblk0 V c 2 t (ix1 q) = V c main_arg4 (ix1 ((((cfg0.win 3).blk t).view.emb (ix2 p q)) 1)) := by
    show V c main_arg4 (((cfg0.win 2).blk t).view.emb (ix1 q)) = _
    refine congrArg (V c main_arg4) (funext fun a => Fin.ext ?_)
    match a with
    | ⟨0, _⟩ => show win0_2.index t (0 : Fin 1) * 64 + 1 * q.val = win0_3.index t (1 : Fin 2) * 64 + 1 * q.val; rw [e5, e2]
  exact congrArg₂ max (congrArg₂ (· + ·) (Finset.sum_congr rfl fun k _ => congrArg₂ (· * ·) (hx k) (hw k)) hb) rfl

/-- An index of the hidden array is in grid point `t`'s block when each coordinate is in the block's range. -/
theorem mem_blk (t : Fin cfg0.N) (i : S1600000x64.Idx) :
    i ∈ ((cfg0.win 3).blk t).view.set ↔ ∀ a : Fin 2, win0_3.index t a * S20000x64.size a ≤ (i a).val
      ∧ (i a).val < win0_3.index t a * S20000x64.size a + S20000x64.size a := by
  show i ∈ ((View.whole main_v14).slice (win0_3.rect t)).set ↔ _
  rw [View.set_slice_whole, Rect.mem_set_unit]
  exact Iff.rfl

/-- The 80 blocks tile the rows: edge `e` lies in the block of grid point `e / 20000`. -/
theorem cover (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  obtain ⟨t, ht⟩ := block_onto ⟨(i 0).val / 20000, by omega⟩
  have q0 : win0_3.index t (0 : Fin 2) = (i 0).val / 20000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 20000 ≤ (i 0).val ∧ (i 0).val < win0_3.index t (0 : Fin 2) * 20000 + 20000
    omega
  | ⟨1, _⟩ =>
    show win0_3.index t (1 : Fin 2) * 64 ≤ (i 1).val ∧ (i 1).val < win0_3.index t (1 : Fin 2) * 64 + 64
    omega

/-- After the first launch the hidden array is the edge stage of the arrays the launch found. -/
theorem hidden_eq (c : Dev nD) :
    (dat0 V c).arrAt 3 cfg0.N = Cert.Spec.edgeStage (V c main_v13) (V c main_arg3) (V c main_arg4) :=
  (dat0 V c).arrAt_eq_of_cover 3 _ (fun t _ => flushed_eq V c t) cover

end Cert.KernelIdeal.EdgeStage

end
-- ==== Proof.RefEdge.lean ====
/-
  The reference's edge stage, read entry by entry.

  The reference multiplies the gathered, weighted neighbour rows (1600000 × 64) by the 64 × 64 weight, adds the bias
  row and takes the maximum with zero. Over the extended reals its entry at edge `e`, column `u` is
      max (∑ k, n (e, k) * w (k, u) + b u) 0,
  where `n` is the array of weighted neighbour rows: the same expression the kernel's first body stores for the row
  of its block that holds edge `e`.
-/
import proofs.«107751_j37254546326091_1_alg».proof.Proof.Gen.ReferenceIdeal.Read
import proofs.«107751_j37254546326091_1_alg».proof.Proof.Spec
import Idealize.ShloMosaic.Lib.ValueIdx
import Idealize.ShloMosaic.PureOps.Ideal.Laws

noncomputable section

namespace Cert.ReferenceIdeal.Stages

open Cert.ReferenceIdeal Cert.ReferenceIdeal.Read Idealize.ShloMosaic Idealize.ShloMosaic.ValueIdx

/-- The reference's relu of (neighbour rows · weight + bias), at edge `e` and column `u`. -/
theorem edge_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (e : Fin 1600000) (u : Fin 64) :
    val_main_v18 (F := Ideal) x0 x1 x2 x3 x4 (ix2 e u)
      = max (∑ k : Fin 64, val_main_v13 (F := Ideal) x0 x1 x2 (ix2 e k) * x3 (ix2 k u) + x4 (ix1 u)) 0 := by
  have hl : ∀ k : Fin 64, lidx_main_v14 (ix2 e u) k = ix2 e k := fun k =>
    funext fun a => by match a with | ⟨0, _⟩ => rfl | ⟨1, _⟩ => rfl
  have hr : ∀ k : Fin 64, ridx_main_v14 (ix2 e u) k = ix2 k u := fun k =>
    funext fun a => by match a with | ⟨0, _⟩ => rfl | ⟨1, _⟩ => rfl
  have hb : idx_main_v15 (idx_main_v16 (ix2 e u)) = ix1 u :=
    funext fun a => by match a with | ⟨0, _⟩ => rfl
  rw [val_main_v18_apply, val_main_v17_apply, val_main_v14_apply, val_main_v16_apply, val_main_v15_apply,
    val_main_call0_v0_apply, val_main_call0_cst_apply, hb]
  simp only [hl, hr]
  exact congrArg (max _) Ideal.ofBits_zero_f32

/-- As whole arrays: the reference's hidden rows are the edge stage of its weighted neighbour rows. -/
theorem edge_eq (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) :
    val_main_v18 (F := Ideal) x0 x1 x2 x3 x4 = Cert.Spec.edgeStage (val_main_v13 (F := Ideal) x0 x1 x2) x3 x4 := by
  funext i
  obtain ⟨e, u, rfl⟩ : ∃ (e : Fin 1600000) (u : Fin 64), i = ix2 e u := ⟨i 0, i 1, eq_ix2 i⟩
  exact edge_apply x0 x1 x2 x3 x4 e u

end Cert.ReferenceIdeal.Stages

end
-- ==== Proof.HostGlue.lean ====
/-
  The host operations around the two launches, read against the reference's stages.

  Both programs run the same host operations on the same arguments: before the edge stage, the destination and source
  rows of the edge list, the gather of the source nodes' features and the product with the edge weights; between the
  stages, the two scatter-additions over the destination rows (the hidden rows, and ones to count the edges), the
  maximum of the count with one and the quotient. So the arrays the first launch finds are the reference's weighted
  neighbour rows, weight and bias; the hidden array it leaves is the reference's hidden array; and the array of means
  the second launch finds is the reference's array of means. The arguments themselves reach the second launch as
  launched.
-/
import proofs.«107751_j37254546326091_1_alg».proof.Proof.Gen.KernelIdeal.Frame
import proofs.«107751_j37254546326091_1_alg».proof.Proof.Gen.ReferenceIdeal.Read
import proofs.«107751_j37254546326091_1_alg».proof.Proof.EdgeArray
import proofs.«107751_j37254546326091_1_alg».proof.Proof.RefEdge
import Idealize.ShloMosaic.Lib.StableHlo.Run

set_option maxRecDepth 16384

noncomputable section

namespace Cert.KernelIdeal.HostGlue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the first launch finds -/

/-- The neighbour-row operand of the first launch is the reference's array of weighted neighbour rows. -/
theorem entry0_rows (c : Dev nD) :
    V1 m ρ c main_v13 = Cert.ReferenceIdeal.Read.val_main_v13 (F := Ideal) (m ((c : Thread nD τ).loc main_arg0)) (m ((c : Thread nD τ).loc main_arg1)) (m ((c : Thread nD τ).loc main_arg2)) := by
  show StableHlo.after hostOps0 (W0 m ρ c) (Proc.devRef .tc main_v13) = _
  after_results
  rfl

/-- Its weight operand is the argument as launched. -/
theorem entry0_weight (c : Dev nD) : V1 m ρ c main_arg3 = (m ((c : Thread nD τ).loc main_arg3)) := by
  show StableHlo.after hostOps0 (W0 m ρ c) (Proc.devRef .tc main_arg3) = _
  after_results

/-- Its bias operand is the argument as launched. -/
theorem entry0_bias (c : Dev nD) : V1 m ρ c main_arg4 = (m ((c : Thread nD τ).loc main_arg4)) := by
  show StableHlo.after hostOps0 (W0 m ρ c) (Proc.devRef .tc main_arg4) = _
  after_results

/-- The destination rows of the edge list, computed before the first launch, are the reference's. -/
theorem entry0_dst (c : Dev nD) :
    V1 m ρ c main_v1 = Cert.ReferenceIdeal.Read.val_main_v1 (F := Ideal) (m ((c : Thread nD τ).loc main_arg1)) := by
  show StableHlo.after hostOps0 (W0 m ρ c) (Proc.devRef .tc main_v1) = _
  after_results
  rfl

/-! ## What the first launch leaves -/

/-- The hidden array after the first launch is the reference's hidden array. -/
theorem hidden (c : Dev nD) :
    (dat0 (V1 m ρ) c).arrAt 3 cfg0.N = Cert.ReferenceIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [EdgeStage.hidden_eq (V1 m ρ) c, entry0_rows, entry0_weight, entry0_bias]
  exact (Cert.ReferenceIdeal.Stages.edge_eq _ _ _ _ _).symm

/-! ## What the second launch finds -/

/-- The mean operand of the second launch is the reference's array of means. -/
theorem entry1_mean (c : Dev nD) :
    V3 m ρ c main_v26 = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h14 : W2 m ρ c (Proc.devRef .tc main_v14) = Cert.ReferenceIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (W2_arr m ρ c 3).trans (hidden m ρ c)
  have h1 : W2 m ρ c (Proc.devRef .tc main_v1) = Cert.ReferenceIdeal.Read.val_main_v1 (F := Ideal) (m ((c : Thread nD τ).loc main_arg1)) :=
    (W2_of_ne m ρ c main_v1 (by decide)).trans (entry0_dst m ρ c)
  show StableHlo.after hostOps1 (W2 m ρ c) (Proc.devRef .tc main_v26) = _
  after_results
  rw [h14, h1]
  rfl

/-- An argument no region of the first launch writes reaches the second launch as launched. -/
theorem entry1_features (c : Dev nD) : V3 m ρ c main_arg0 = (m ((c : Thread nD τ).loc main_arg0)) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results

theorem entry1_nk (c : Dev nD) : V3 m ρ c main_arg5 = (m ((c : Thread nD τ).loc main_arg5)) := by
  show StableHlo.after hostOps1 (W2 m ρ c) (Proc.devRef .tc main_arg5) = _
  after_results
  refine (W2_of_ne m ρ c main_arg5 (by decide)).trans ?_
  show StableHlo.after hostOps0 (W0 m ρ c) (Proc.devRef .tc main_arg5) = _
  after_results

theorem entry1_sk (c : Dev nD) : V3 m ρ c main_arg6 = (m ((c : Thread nD τ).loc main_arg6)) := by
  show StableHlo.after hostOps1 (W2 m ρ c) (Proc.devRef .tc main_arg6) = _
  after_results
  refine (W2_of_ne m ρ c main_arg6 (by decide)).trans ?_
  show StableHlo.after hostOps0 (W0 m ρ c) (Proc.devRef .tc main_arg6) = _
  after_results

theorem entry1_bias (c : Dev nD) : V3 m ρ c main_arg7 = (m ((c : Thread nD τ).loc main_arg7)) := by
  show StableHlo.after hostOps1 (W2 m ρ c) (Proc.devRef .tc main_arg7) = _
  after_results
  refine (W2_of_ne m ρ c main_arg7 (by decide)).trans ?_
  show StableHlo.after hostOps0 (W0 m ρ c) (Proc.devRef .tc main_arg7) = _
  after_results

end Cert.KernelIdeal.HostGlue

end
-- ==== Proof.LibConcatColumns.lean ====
/-
  Two rank-2 arrays with the same number of rows, joined along the columns, read at an entry.
-/
import Idealize.ShloMosaic.Lib.Pipeline.Value
import Idealize.ShloMosaic.Lib.ValueIdx

noncomputable section

namespace Cert.Lib

open Idealize.ShloMosaic Idealize.ShloMosaic.ValueIdx

/-- An `[a, b₁]` array and an `[a, b₂]` array concatenated along axis 1 into an `[a, n]` array (`n = b₁ + b₂`), read
    at row `p` and column `j`: the first array at `(p, j)` when `j < b₁`, otherwise the second at `(p, j - b₁)`. -/
theorem concat_columns_apply {α : Type} {a b₁ b₂ n : ℕ} (x₁ : (⟨2, ![a, b₁]⟩ : Shape).Idx → α)
    (x₂ : (⟨2, ![a, b₂]⟩ : Shape).Idx → α)
    (h : Shape.Concatenates [(⟨2, ![a, b₁]⟩ : Shape), (⟨2, ![a, b₂]⟩ : Shape)] (⟨2, ![a, n]⟩ : Shape) 1) (hn : n = b₁ + b₂)
    (p : Fin a) (j : Fin n) :
    concatenate (⟨2, ![a, n]⟩ : Shape) 1 [⟨(⟨2, ![a, b₁]⟩ : Shape), x₁⟩, ⟨(⟨2, ![a, b₂]⟩ : Shape), x₂⟩] h (ix2 p j)
      = if hj : j.val < b₁ then x₁ (ix2 p (⟨j.val, hj⟩ : Fin b₁))
        else x₂ (ix2 p (⟨j.val - b₁, by have := j.isLt; omega⟩ : Fin b₂)) := by
  split
  · next hj =>
    exact concatenate_pair_apply_left 1 x₁ x₂ h (ix2 p j) rfl (ix2 p (⟨j.val, hj⟩ : Fin b₁))
      (fun b => by match b with | ⟨0, _⟩ => rfl | ⟨1, _⟩ => rfl)
  · next hj =>
    exact concatenate_pair_apply_right 1 x₁ x₂ h (ix2 p j) rfl rfl
      (ix2 p (⟨j.val - b₁, by have := j.isLt; omega⟩ : Fin b₂))
      (fun b hb => by
        match b with
        | ⟨0, _⟩ => rfl
        | ⟨1, _⟩ => exact absurd rfl hb)
      (by show j.val - b₁ + b₁ = j.val; omega)

end Cert.Lib

end
-- ==== Proof.NodeBlock.lean ====
/-
  One block of the node stage, read entry by entry.

  The second kernel body takes a block `r` of 10000 rows of the neighbours' mean, the same rows `x` of the node
  features, the two 64 × 64 weights `nk`, `sk` and the bias row `b` of 128 entries; it joins `r · nk` and `x · sk` side by
  side, adds the bias and takes the maximum with zero. Over the extended reals the entry at row `p`, column `j` is
      max ((if j < 64 then ∑ k, r (p, k) * nk (k, j) else ∑ k, x (p, k) * sk (k, j - 64)) + b j) 0.
-/
import proofs.«107751_j37254546326091_1_alg».proof.Proof.Gen.KernelIdeal.Skeleton
import proofs.«107751_j37254546326091_1_alg».proof.Proof.LibConcatColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeStage

open Cert.KernelIdeal Cert.KernelIdeal.Gen Idealize.ShloMosaic Idealize.ShloMosaic.ValueIdx

/-! The operand positions of the block product: at output position `i` and contracted position `q` the left operand
    is read at (row of `i`, `q`) and the right operand at (`q`, column of `i`). -/

theorem lhs_row (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_col (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs_row (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs_col (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The product of a 10000 × 64 block with a 64 × 64 weight, into a zero accumulator, at row `p` and column `u`:
    the sum over the 64 contracted positions of the block's row entry times the weight's column entry. -/
theorem matmul_block_apply (x : FVec Ideal S10000x64 .bf16) (w : FVec Ideal S64x64 .bf16) (p : Fin 10000) (u : Fin 64) :
    matmul dot_S10000x64_S64x64_S10000x64_1_0_0_1_n_n none x w (constant (F := Ideal) S10000x64 .f32 0x00000000#32) (ix2 p u)
      = ∑ k : Fin 64, x (ix2 p k) * w (ix2 k u) := by
  refine (Ideal.matmul_constant_zero_apply dot_S10000x64_S64x64_S10000x64_1_0_0_1_n_n none x w (ix2 p u)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p u) ((ValueIdx.contrEquiv1 dot_S10000x64_S64x64_S10000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S10000x64_S64x64_S10000x64_1_0_0_1_n_n.rhsIdx (ix2 p u) ((ValueIdx.contrEquiv1 dot_S10000x64_S64x64_S10000x64_1_0_0_1_n_n 64 rfl rfl).symm k) = ix2 k u :=
    funext fun a => Fin.ext (by
      match a with
      | ⟨0, _⟩ => exact (rhs_row _ _).trans hk
      | ⟨1, _⟩ => exact rhs_col _ _)
  rw [el, er]

/-- The bias row, given a unit leading axis and repeated over the 10000 rows, at `(p, j)` is the bias at `j`. -/
theorem bias_rows_apply (b : Vec Ideal S128 .f32) (p : Fin 10000) (j : Fin 128) :
    broadcastTo S10000x128 (shapeCast S1x128 b shapeCasts_S128_S1x128) broadcasts_S1x128_S10000x128 (ix2 p j) = b (ix1 j) :=
  (broadcastTo_1b_ab_apply _ broadcasts_S1x128_S10000x128 p j).trans (shapeCast_a_1a_apply b shapeCasts_S128_S1x128 0 j)

/-- What the second body stores, at row `p` and column `j` of its block. -/
theorem pay_apply (r x : Vec Ideal S10000x64 .f32) (nk sk : Vec Ideal S64x64 .f32) (b : Vec Ideal S128 .f32)
    (p : Fin 10000) (j : Fin 128) :
    k1_pay1 (F := Ideal) r x nk sk b (ix2 p j)
      = max ((if h : j.val < 64 then ∑ k : Fin 64, r (ix2 p k) * nk (ix2 k (⟨j.val, h⟩ : Fin 64))
          else ∑ k : Fin 64, x (ix2 p k) * sk (ix2 k (⟨j.val - 64, by have := j.isLt; omega⟩ : Fin 64))) + b (ix1 j)) 0 := by
  unfold k1_pay1
  rw [maximumf_apply, addf_apply, bias_rows_apply, shapeCast_self, broadcast_apply]
  refine congrArg₂ max (congrArg (· + b (ix1 j)) ?_) Ideal.ofBits_zero_f32
  refine (Cert.Lib.concat_columns_apply _ _ concatenates_S10000x64_S10000x64_S10000x128_d1 rfl p j).trans ?_
  refine dite_congr rfl (fun h => ?_) (fun h => ?_)
  · exact matmul_block_apply _ _ p _
  · exact matmul_block_apply _ _ p _

end Cert.KernelIdeal.NodeStage

end
-- ==== Proof.NodeArray.lean ====
/-
  From the node stage's blocks to its whole array.

  Grid point `t` of the second launch reads rows 10000·t … 10000·t + 9999 of the neighbours' mean and of the node
  features, the two whole weights and the whole bias, and writes back the same rows of the result. The 10 blocks tile
  the 100000 rows, so after the launch the result is the node stage of the arrays the launch found — whatever those
  arrays are.
-/
import proofs.«107751_j37254546326091_1_alg».proof.Proof.Gen.KernelIdeal.Frame
import proofs.«107751_j37254546326091_1_alg».proof.Proof.NodeBlock
import proofs.«107751_j37254546326091_1_alg».proof.Proof.Spec
import Idealize.ShloMosaic.Lib.Pipeline.Value

set_option maxRecDepth 16384

noncomputable section

namespace Cert.KernelIdeal.NodeStage

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem off2_zero : (![0, 0] : Fin 2 → Nat) = fun _ => 0 := funext fun a => by fin_cases a <;> rfl
theorem off1_zero : (![0] : Fin 1 → Nat) = fun _ => 0 := funext fun a => by fin_cases a; rfl

/-- The block positions over the grid: the means, the features and the result move together along the rows and never
    along the columns; the two weights and the bias stay at their one block. -/
theorem block_positions : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 9 :=
  (by decide +kernel : ∀ t : Fin grid1.N, _)

/-- Every one of the 10 row blocks is some grid point's. -/
theorem block_onto : ∀ q : Fin 10, ∃ t : Fin cfg1.N, win1_5.index t = ![q.val, 0] :=
  (by decide +kernel : ∀ q : Fin 10, ∃ t : Fin grid1.N, win1_5.index t = ![q.val, 0])

/-- What grid point `t` writes back is block `t` of the node stage of the arrays the launch found. -/
theorem flushed_eq (c : Dev nD) (t : Fin cfg1.N) :
    (dat1 V c).flushed 5 t = ((cfg1.win 5).blk t).view.read (Elt Ideal)
      (Cert.Spec.nodeStage (V c main_v26) (V c main_arg0) (V c main_arg5) (V c main_arg6) (V c main_arg7)) := by
  show (cfg1.win 5).cut (grid1.coords t) ((dat1 V c).after 5 t) = _
  rw [after1_5]
  unfold out1_5
  rw [View.canon_unit_zero off2_zero]
  simp only [View.ld_unit_zero (S := S10000x64) off2_zero, View.ld_unit_zero (S := S64x64) off2_zero,
    View.ld_unit_zero (S := S128) off1_zero]
  obtain ⟨e0, e1, e2, e3, e4, e5, e6, e7, e8, e9, e10⟩ := block_positions t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Spec.nodeStage (V c main_v26) (V c main_arg0) (V c main_arg5) (V c main_arg6) (V c main_arg7)
        (((cfg1.win 5).blk t).view.emb (ix2 p q))
  refine (pay_apply (iblk1 V c 0 t) (iblk1 V c 1 t) (iblk1 V c 2 t) (iblk1 V c 3 t) (iblk1 V c 4 t) p q).trans ?_
  unfold Cert.Spec.nodeStage Cert.Spec.joined
  -- the result block's column is the array's column
  have hcol : (((cfg1.win 5).blk t).view.emb (ix2 p q)) 1 = q :=
    Fin.ext (by show win1_5.index t (1 : Fin 2) * 128 + 1 * q.val = q.val; rw [e9]; omega)
  rw [hcol]
  -- the mean and feature blocks' row `p` is row 10000·t + p of their arrays; weights and bias are read whole
  have hr : ∀ k : Fin 64, iblk1 V c 0 t (ix2 p k)
      = V c main_v26 (ix2 ((((cfg1.win 5).blk t).view.emb (ix2 p q)) 0) k) := fun k => by
    show V c main_v26 (((cfg1.win 0).blk t).view.emb (ix2 p k)) = _
    refine congrArg (V c main_v26) (funext fun a => Fin.ext ?_)
    match a with
    | ⟨0, _⟩ => show win1_0.index t (0 : Fin 2) * 10000 + 1 * p.val = win1_5.index t (0 : Fin 2) * 10000 + 1 * p.val; rw [e0]
    | ⟨1, _⟩ => show win1_0.index t (1 : Fin 2) * 64 + 1 * k.val = k.val; rw [e1]; omega
  have hx : ∀ k : Fin 64, iblk1 V c 1 t (ix2 p k)
      = V c main_arg0 (ix2 ((((cfg1.win 5).blk t).view.emb (ix2 p q)) 0) k) := fun k => by
    show V c main_arg0 (((cfg1.win 1).blk t).view.emb (ix2 p k)) = _
    refine congrArg (V c main_arg0) (funext fun a => Fin.ext ?_)
    match a with
    | ⟨0, _⟩ => show win1_1.index t (0 : Fin 2) * 10000 + 1 * p.val = win1_5.index t (0 : Fin 2) * 10000 + 1 * p.val; rw [e2]
    | ⟨1, _⟩ => show win1_1.index t (1 : Fin 2) * 64 + 1 * k.val = k.val; rw [e3]; omega
  have hnk : ∀ y : S64x64.Idx, iblk1 V c 2 t y = V c main_arg5 y := fun y => by
    show V c main_arg5 (((cfg1.win 2).blk t).view.emb y) = _
    refine congrArg (V c main_arg5) (funext fun a => Fin.ext ?_)
    match a with
    | ⟨0, _⟩ => show win1_2.index t (0 : Fin 2) * 64 + 1 * (y 0).val = (y 0).val; rw [e4]; omega
    | ⟨1, _⟩ => show win1_2.index t (1 : Fin 2) * 64 + 1 * (y 1).val = (y 1).val; rw [e5]; omega
  have hsk : ∀ y : S64x64.Idx, iblk1 V c 3 t y = V c main_arg6 y := fun y => by
    show V c main_arg6 (((cfg1.win 3).blk t).view.emb y) = _
    refine congrArg (V c main_arg6) (funext fun a => Fin.ext ?_)
    match a with
    | ⟨0, _⟩ => show win1_3.index t (0 : Fin 2) * 64 + 1 * (y 0).val = (y 0).val; rw [e6]; omega
    | ⟨1, _⟩ => show win1_3.index t (1 : Fin 2) * 64 + 1 * (y 1).val = (y 1).val; rw [e7]; omega
  have hb : ∀ y : S128.Idx, iblk1 V c 4 t y = V c main_arg7 y := fun y => by
    show V c main_arg7 (((cfg1.win 4).blk t).view.emb y) = _
    refine congrArg (V c main_arg7) (funext fun a => Fin.ext ?_)
    match a with
    | ⟨0, _⟩ => show win1_4.index t (0 : Fin 1) * 128 + 1 * (y 0).val = (y 0).val; rw [e8]; omega
  simp only [hr, hx, hnk, hsk, hb]

/-- An index of the result is in grid point `t`'s block when each coordinate is in the block's range. -/
theorem mem_blk (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v27).slice (win1_5.rect t)).set ↔ _
  rw [View.set_slice_whole, Rect.mem_set_unit]
  exact Iff.rfl

/-- The 10 blocks tile the rows: node `v` lies in the block of grid point `v / 10000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := block_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 128 ≤ (i 1).val ∧ (i 1).val < win1_5.index t (1 : Fin 2) * 128 + 128
    omega

/-- After the second launch the result is the node stage of the arrays the launch found. -/
theorem result_eq (c : Dev nD) :
    (dat1 V c).arrAt 5 cfg1.N
      = Cert.Spec.nodeStage (V c main_v26) (V c main_arg0) (V c main_arg5) (V c main_arg6) (V c main_arg7) :=
  (dat1 V c).arrAt_eq_of_cover 5 _ (fun t _ => flushed_eq V c t) cover

end Cert.KernelIdeal.NodeStage

end
-- ==== Proof.RefNode.lean ====
/-
  The reference's node stage, read entry by entry.

  The reference multiplies the neighbours' mean (100000 × 64) by `nk` and the node features by `sk`, joins the two
  products side by side, adds the bias row and takes the maximum with zero. Over the extended reals its entry at node
  `v`, column `j` is
      max ((if j < 64 then ∑ k, r (v, k) * nk (k, j) else ∑ k, x (v, k) * sk (k, j - 64)) + b j) 0,
  where `r` is the array of means: the same expression the kernel's second body stores for the row of its block that
  holds node `v`.
-/
import proofs.«107751_j37254546326091_1_alg».proof.Proof.Gen.ReferenceIdeal.Read
import proofs.«107751_j37254546326091_1_alg».proof.Proof.Spec
import proofs.«107751_j37254546326091_1_alg».proof.Proof.LibConcatColumns
import Idealize.ShloMosaic.Lib.ValueIdx
import Idealize.ShloMosaic.PureOps.Ideal.Laws

noncomputable section

namespace Cert.ReferenceIdeal.Stages

open Cert.ReferenceIdeal Cert.ReferenceIdeal.Read Idealize.ShloMosaic Idealize.ShloMosaic.ValueIdx

/-- The product of the neighbours' mean with `nk`, at node `v` and column `u`. -/
theorem from_neighs_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (v : Fin 100000) (u : Fin 64) :
    val_main_v31 (F := Ideal) x0 x1 x2 x3 x4 x5 (ix2 v u)
      = ∑ k : Fin 64, val_main_v30 (F := Ideal) x0 x1 x2 x3 x4 (ix2 v k) * x5 (ix2 k u) := by
  have hl : ∀ k : Fin 64, lidx_main_v31 (ix2 v u) k = ix2 v k := fun k =>
    funext fun a => by match a with | ⟨0, _⟩ => rfl | ⟨1, _⟩ => rfl
  have hr : ∀ k : Fin 64, ridx_main_v31 (ix2 v u) k = ix2 k u := fun k =>
    funext fun a => by match a with | ⟨0, _⟩ => rfl | ⟨1, _⟩ => rfl
  rw [val_main_v31_apply]
  simp only [hl, hr]

/-- The product of the node features with `sk`, at node `v` and column `u`. -/
theorem from_self_apply (x0 : (⟨S100000x64, .f32⟩ : BufTy).Contents (Elt Ideal)) (x6 : (⟨S64x64, .f32⟩ : BufTy).Contents (Elt Ideal))
    (v : Fin 100000) (u : Fin 64) :
    val_main_v32 (F := Ideal) x0 x6 (ix2 v u) = ∑ k : Fin 64, x0 (ix2 v k) * x6 (ix2 k u) := by
  have hl : ∀ k : Fin 64, lidx_main_v32 (ix2 v u) k = ix2 v k := fun k =>
    funext fun a => by match a with | ⟨0, _⟩ => rfl | ⟨1, _⟩ => rfl
  have hr : ∀ k : Fin 64, ridx_main_v32 (ix2 v u) k = ix2 k u := fun k =>
    funext fun a => by match a with | ⟨0, _⟩ => rfl | ⟨1, _⟩ => rfl
  rw [val_main_v32_apply]
  simp only [hl, hr]

/-- The reference's relu of (joined products + bias), at node `v` and column `j`. -/
theorem node_apply (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S128, .f32⟩ : BufTy).Contents (Elt Ideal)) (v : Fin 100000) (j : Fin 128) :
    val_main_v37 (F := Ideal) x0 x1 x2 x3 x4 x5 x6 x7 (ix2 v j)
      = max (Cert.Spec.joined (val_main_v30 (F := Ideal) x0 x1 x2 x3 x4) x0 x5 x6 v j + x7 (ix1 j)) 0 := by
  have hb : idx_main_v34 (idx_main_v35 (ix2 v j)) = ix1 j :=
    funext fun a => by match a with | ⟨0, _⟩ => rfl
  rw [val_main_v37_apply, val_main_v36_apply, val_main_v35_apply, val_main_v34_apply,
    val_main_call1_v0_apply, val_main_call1_cst_apply, hb]
  refine congrArg₂ max (congrArg (· + x7 (ix1 j)) ?_) Ideal.ofBits_zero_f32
  unfold val_main_v33 Cert.Spec.joined
  refine (Cert.Lib.concat_columns_apply (a := 100000) (b₁ := 64) (b₂ := 64) (n := 128) _ _ _ rfl v j).trans ?_
  refine dite_congr rfl (fun h => ?_) (fun h => ?_)
  · exact from_neighs_apply x0 x1 x2 x3 x4 x5 v _
  · exact from_self_apply x0 x6 v _

/-- As whole arrays: the reference's result is the node stage of its array of means and its arguments. -/
theorem node_eq (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S128, .f32⟩ : BufTy).Contents (Elt Ideal)) :
    val_main_v37 (F := Ideal) x0 x1 x2 x3 x4 x5 x6 x7
      = Cert.Spec.nodeStage (val_main_v30 (F := Ideal) x0 x1 x2 x3 x4) x0 x5 x6 x7 := by
  funext i
  obtain ⟨v, j, rfl⟩ : ∃ (v : Fin 100000) (j : Fin 128), i = ix2 v j := ⟨i 0, i 1, eq_ix2 i⟩
  exact node_apply x0 x1 x2 x3 x4 x5 x6 x7 v j

end Cert.ReferenceIdeal.Stages

end
-- ==== Proof.Bridge.lean ====
/-
  The idealized kernel's result is the reference's.

  The second launch finds the reference's array of means and the arguments as launched, and leaves the node stage of
  them; the reference's result is the same node stage of the same arrays. So the kernel's result buffer ends holding
  the reference's result term of the launch arguments.
-/
import proofs.«107751_j37254546326091_1_alg».proof.Proof.KernelRun
import proofs.«107751_j37254546326091_1_alg».proof.Proof.HostGlue
import proofs.«107751_j37254546326091_1_alg».proof.Proof.NodeArray
import proofs.«107751_j37254546326091_1_alg».proof.Proof.RefNode

set_option maxRecDepth 16384

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The array the second launch's write-backs build is the reference's result of the launch arguments. -/
theorem result (c : Dev nD) :
    (dat1 (V3 m ρ) c).arrAt 5 cfg1.N
      = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [NodeStage.result_eq (V3 m ρ) c, HostGlue.entry1_mean, HostGlue.entry1_features, HostGlue.entry1_nk,
    HostGlue.entry1_sk, HostGlue.entry1_bias]
  exact (Cert.ReferenceIdeal.Stages.node_eq _ _ _ _ _ _ _ _).symm

/-- Every weakly fair execution of the idealized kernel terminates without a fault, its result buffer holding the
    reference's result of the launch arguments and its arguments unchanged. -/
theorem run : θ_run defs (onTc (τ := τ) (main (F := Ideal))) ⟨m, fun _ => 0, ρ⟩ (fun r => ∀ c : Dev nD,
      r.2.mem ((c.tc : Thread nD τ).loc main_v27)
        = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (RunValue.run_main m ρ)

end Cert.KernelIdeal.Bridge

end
-- ==== Proof.lean ====
/-
  A two-stage graph layer: the kernel against its reference, over the extended reals.

  Both programs gather the source nodes' feature rows along 1600000 edges and weight them, apply a dense layer with
  relu to every edge row (the edge stage), average the hidden rows over each node's incoming edges (two
  scatter-additions, a maximum with one, a quotient), and apply a second dense layer with relu to the means joined
  with the node's own features (the node stage). The kernel runs the two dense stages as launches over row blocks
  (80 blocks of 20000 edge rows, 10 blocks of 10000 node rows) with the operands passed through a narrower float
  format on the way into the products; the reference runs them on whole arrays. Over the extended reals a change of
  float format is the identity and a block product into a zero accumulator is the plain sum over the contracted axis,
  so each launch leaves exactly the reference's stage of the arrays it finds; the host operations before and between
  the launches are the reference's own. Hence the kernel's result is the reference's result term of the arguments,
  entry by entry, with no law of the extended reals needed beyond reading each operation at an index — and so without
  using that the inputs are finite.

  The three frames are the generated ones (the reference's is its run with the result dropped); the kernel is its own
  idealization (no rewrite was applied), so that conjunct is trivial.
-/
import proofs.«107751_j37254546326091_1_alg».proof.Defs
import proofs.«107751_j37254546326091_1_alg».proof.Proof.Gen.Kernel
import proofs.«107751_j37254546326091_1_alg».proof.Proof.Gen.Kernel.Skeleton
import proofs.«107751_j37254546326091_1_alg».proof.Proof.Gen.Kernel.Launch
import proofs.«107751_j37254546326091_1_alg».proof.Proof.Gen.Kernel.Points
import proofs.«107751_j37254546326091_1_alg».proof.Proof.Gen.Kernel.Frame
import proofs.«107751_j37254546326091_1_alg».proof.Proof.Gen.KernelIdeal
import proofs.«107751_j37254546326091_1_alg».proof.Proof.Gen.KernelIdeal.Skeleton
import proofs.«107751_j37254546326091_1_alg».proof.Proof.Gen.KernelIdeal.Launch
import proofs.«107751_j37254546326091_1_alg».proof.Proof.Gen.KernelIdeal.Points
import proofs.«107751_j37254546326091_1_alg».proof.Proof.Gen.KernelIdeal.Frame
import proofs.«107751_j37254546326091_1_alg».proof.Proof.Gen.ReferenceIdeal
import proofs.«107751_j37254546326091_1_alg».proof.Proof.Gen.Pre_finite_inputs
import proofs.«107751_j37254546326091_1_alg».proof.Proof.Gen.ReferenceIdeal.Run
import proofs.«107751_j37254546326091_1_alg».proof.Proof.Gen.ReferenceIdeal.Read
import proofs.«107751_j37254546326091_1_alg».proof.Proof.Bridge
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

/-- The reference has no launch: its frame is its run with the result dropped. -/
theorem frame_reference_ideal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with the reference's result term of those arguments:
    the kernel by the two launches' whole-array values and the shared host operations, the reference by its run. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v37_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
